-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S100000x1 : Shape := ⟨2, ![100000, 1]⟩
abbrev S64x64 : Shape := ⟨2, ![64, 64]⟩
abbrev S1000000x1 : Shape := ⟨2, ![1000000, 1]⟩
abbrev S1000000 : Shape := ⟨1, ![1000000]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S64x64 : S_.BroadcastsInDim S64x64 (![] : Fin 0 → Fin S64x64.rank)
  reducesTo_S64x64_S_d0_1 : S64x64.ReducesTo [0, 1] S_
  bcast_S_S1000000x1 : S_.BroadcastsInDim S1000000x1 (![] : Fin 0 → Fin S1000000x1.rank)
  reducesTo_S1000000x1_S_d0_1 : S1000000x1.ReducesTo [0, 1] S_

variable [Facts]

def fn_part1 {F : FTy → Type} [FloatOps F] (main_v13 : IVec S_ 1) (main_v16 : IVec S1000000x1 1) : IVec S_ 1 :=
  let main_c_5 : IVec S_ 1 := constantI S_ 1 1#1
  let main_v17 : IVec S_ 1 := (fun x v => Host.reduce IntOp.andi x v reducesTo_S1000000x1_S_d0_1 h_S_) main_v16 main_c_5
  let main_v18 : IVec S_ 1 := andi main_v13 main_v17
  main_v18

def fn {F : FTy → Type} [FloatOps F] (main_arg0 : FVec F S1000000x64 .f32) (main_arg1 : FVec F S100000x1 .f32) (main_arg2 : FVec F S64x64 .f32) (main_arg3 : FVec F S1000000x1 .f32) (main_arg4 : IVec S1000000 32) (main_arg5 : IVec S1000000 32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S1000000x1 .f32 := Host.absf main_arg3
  let main_cst_4 : FVec F S_ .f32 := constant S_ .f32 0x7F800000#32
  let main_v15 : FVec F S1000000x1 .f32 := broadcastInDim S1000000x1 ![] bcast_S_S1000000x1 main_cst_4
  let main_v16 : IVec S1000000x1 1 := cmpf .olt main_v14 main_v15
  fn_part1 (F := F) main_v13 main_v16
-- ==== Kernel.lean ====
abbrev S1000000x64 : Shape := ⟨2, ![1000000, 64]⟩
abbrev S100000x1 : Shape := ⟨2, ![100000, 1]⟩
abbrev S64x64 : Shape := ⟨2, ![64, 64]⟩
abbrev S1000000x1 : Shape := ⟨2, ![1000000, 1]⟩
abbrev S1000000 : Shape := ⟨1, ![1000000]⟩
abbrev S_ : Shape := ⟨0, ![]⟩
abbrev S10000x64 : Shape := ⟨2, ![10000, 64]⟩
abbrev S10000x1 : Shape := ⟨2, ![10000, 1]⟩
abbrev S100000x64 : Shape := ⟨2, ![100000, 64]⟩

abbrev nBuf : Space → Nat
  | .hbm => 23
  | .vmem => 13
  | .smem => 0
  | _ => 0

abbrev bufTy : (tb : Table) → Fin (tcTables nBuf tb) → BufTy
  | .hbm, ⟨0, _⟩ => ⟨S1000000x64, .f32⟩
  | .hbm, ⟨1, _⟩ => ⟨S100000x1, .f32⟩
  | .hbm, ⟨2, _⟩ => ⟨S64x64, .f32⟩
  | .hbm, ⟨3, _⟩ => ⟨S1000000x1, .f32⟩
  | .hbm, ⟨4, _⟩ => ⟨S1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x1, .f32⟩
  | .hbm, ⟨15, _⟩ => ⟨S1000000x1, .f32⟩
  | .hbm, ⟨16, _⟩ => ⟨S64x64, .f32⟩
  | .hbm, ⟨17, _⟩ => ⟨S1000000x64, .f32⟩
  | .hbm, ⟨18, _⟩ => ⟨S_, .f32⟩
  | .hbm, ⟨19, _⟩ => ⟨S100000x64, .f32⟩
  | .hbm, ⟨20, _⟩ => ⟨S1000000x1, .i32⟩
  | .hbm, ⟨21, _⟩ => ⟨S100000x64, .f32⟩
  | .hbm, ⟨22, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S10000x64, .f32⟩
  | .local _ .vmem, ⟨12, _⟩ => ⟨S10000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S10000x64_S10000x64 : S10000x64.ShapeCasts S10000x64
  gather_S100000x1_S1000000x1_S1000000x1_1_0_n_n_0_1_11_wf : GatherDims.WF S100000x1 S1000000x1 S1000000x1 [1] [0] [] [0] [] 1 ![1, 1]
  dot_S10000x64_S64x64_S10000x64_1_0_0_1_n_n_wf : DotDims.WF S10000x64 S64x64 S10000x64 [1] [0] [0] [1] [] []
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S1000000x1.size a
  hwx0_2 : ∀ i : grid0.Coords, EltTy.bits .f32 = 32 ∨ (Rect.block (s := S1000000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S1000000x64.size a
  hwx0_3 : ∀ i : grid0.Coords, EltTy.bits .f32 = 32 ∨ (Rect.block (s := S1000000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1000000x64 : Shape := ⟨2, ![1000000, 64]⟩
abbrev S100000x1 : Shape := ⟨2, ![100000, 1]⟩
abbrev S64x64 : Shape := ⟨2, ![64, 64]⟩
abbrev S1000000x1 : Shape := ⟨2, ![1000000, 1]⟩
abbrev S1000000 : Shape := ⟨1, ![1000000]⟩
abbrev S_ : Shape := ⟨0, ![]⟩
abbrev S100000x64 : Shape := ⟨2, ![100000, 64]⟩

abbrev nBuf : Space → Nat
  | .hbm => 25
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S100000x1, .f32⟩
  | .hbm, ⟨2, _⟩ => ⟨S64x64, .f32⟩
  | .hbm, ⟨3, _⟩ => ⟨S1000000x1, .f32⟩
  | .hbm, ⟨4, _⟩ => ⟨S1000000, .i32⟩
  | .hbm, ⟨5, _⟩ => ⟨S1000000, .i32⟩
  | .hbm, ⟨6, _⟩ => ⟨S1000000x64, .f32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1000000x1, .f32⟩
  | .hbm, ⟨16, _⟩ => ⟨S1000000x1, .f32⟩
  | .hbm, ⟨17, _⟩ => ⟨S1000000x64, .f32⟩
  | .hbm, ⟨18, _⟩ => ⟨S1000000x64, .f32⟩
  | .hbm, ⟨19, _⟩ => ⟨S_, .f32⟩
  | .hbm, ⟨20, _⟩ => ⟨S100000x64, .f32⟩
  | .hbm, ⟨21, _⟩ => ⟨S1000000x1, .i32⟩
  | .hbm, ⟨22, _⟩ => ⟨S100000x64, .f32⟩
  | .hbm, ⟨23, _⟩ => ⟨S100000x64, .f32⟩
  | .hbm, ⟨24, _⟩ => ⟨S100000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  dot_S1000000x64_S64x64_S1000000x64_1_1_0_0_n_n_wf : DotDims.WF S1000000x64 S64x64 S1000000x64 [1] [1] [0] [0] [] []
  gather_S100000x1_S1000000x1_S1000000x1_1_0_n_n_0_1_11_wf : GatherDims.WF S100000x1 S1000000x1 S1000000x1 [1] [0] [] [0] [] 1 ![1, 1]
  scatter_S100000x64_S1000000x1_S1000000x64_1_0_0_1_wf : ScatterDims.WF S100000x64 S1000000x1 S1000000x64 [1] [0] [0] 1

variable [Facts₀]

def dot_S1000000x64_S64x64_S1000000x64_1_1_0_0_n_n : DotDims S1000000x64 S64x64 S1000000x64 where
  lhsContracting := [1]
  rhsContracting := [1]
  lhsNonContracting := [0]
  rhsNonContracting := [0]
  lhsBatch := []
  rhsBatch := []
  wf := dot_S1000000x64_S64x64_S1000000x64_1_1_0_0_n_n_wf
def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.WholeRun.lean ====
/-
  The whole program's run, with every buffer named.

  The program is four stretches in a row: host operations, the first kernel over its grid, host operations, the second
  kernel over its grid. Each stretch takes the contents of the core's buffers to new contents — a host stretch applies its
  operations; a kernel's region leaves its arrays at what its blocks' write-backs fold to and every other buffer as it
  found it — so the contents at the end, `W4`, are a fold through the four stretches from the launch memory. Every
  weakly fair execution terminates and ends with every unscoped buffer at `W4`; in particular the result buffer.
-/
import proofs.«174294_j9268539425563_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and
    every final memory satisfies whatever follows from "each unscoped buffer holds the fold `W4` of the four stretches". -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run with the result named: the result buffer ends at the fold's contents, the six arguments as launched. -/
theorem run_result : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_of m ρ fun s h c =>
    ⟨h c _ (mem_uc main_v13 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩

end Cert.KernelIdeal.WholeRun

end
-- ==== Proof.Spec.lean ====
/-
  The two entrywise formulas of one message-passing layer, on the extended reals.

  An edge `e` carries a feature row `x e`; its message into feature `f` is the row's inner product with column `f`
  of a 64 x 64 matrix `wT`, times the edge's own scalar `s e`:

      edgeMsg x wT s (e, f) = (sum over k < 64 of x (e, k) * wT (k, f)) * s (e, 0).

  A node `n` scales its aggregated row by its own scalar:

      rowScale h ci (n, f) = h (n, f) * ci (n, 0).

  Both are stated for any number of rows, so that one statement serves a block of rows and the whole table. Nothing is
  assumed finite: the formulas are sums and products of extended reals as they stand.
-/
import Idealize.ShloMosaic.PureOps.Ideal
import Idealize.ShloMosaic.Lib.ValueIdx

noncomputable section

namespace Cert.Spec

open Idealize.ShloMosaic Idealize.ShloMosaic.ValueIdx

/-- A table of extended reals with `a` rows and `b` columns. -/
abbrev Tab (a b : Nat) : Type := (⟨2, ![a, b]⟩ : Shape).Idx → EReal

/-- The message of edge `i 0` into feature `i 1`: the edge's row times column `i 1` of `wT`, times the edge's scalar. -/
def edgeMsg {E : Nat} (x : Tab E 64) (wT : Tab 64 64) (s : Tab E 1) : Tab E 64 :=
  fun i => (∑ k : Fin 64, x (ix2 (i 0) k) * wT (ix2 k (i 1))) * s (ix2 (i 0) (0 : Fin 1))

/-- Row `i 0` of `h` scaled by that row's scalar. -/
def rowScale {N : Nat} (h : Tab N 64) (ci : Tab N 1) : Tab N 64 :=
  fun i => h i * ci (ix2 (i 0) (0 : Fin 1))

end Cert.Spec

end
-- ==== Proof.LibColumnBroadcast.lean ====
/-
  A column broadcast across columns, read at an entry.

  An `[a, 1]` array broadcast to `[a, b]` holds, at `(p, c)`, the operand's entry `(p, 0)`: every column of the
  result is the operand's one column. Generic in the two extents and in the element type.
-/
import Idealize.ShloMosaic.Lib.Pipeline.Value
import Idealize.ShloMosaic.Lib.ValueIdx

noncomputable section

namespace ColumnBroadcast

open Idealize.ShloMosaic Idealize.ShloMosaic.ValueIdx

/-- An `[a, 1]` array broadcast to `[a, b]` reads, at `(p, c)`, the operand at `(p, 0)`. -/
theorem apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end ColumnBroadcast

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.EdgeMessage.lean ====
/-
  The first kernel's array, whole: every edge's message.

  The kernel walks the 1000000 edges in 100 blocks of 10000. At block `t` it loads rows `10000 t ..` of the edge
  features and of the column of edge scalars, and the whole 64 x 64 matrix (the same block at every point); it multiplies
  the block of rows by the matrix on the matrix unit, into a zero accumulator, scales each row of the product by the row's
  scalar, and writes the block back to the same rows of the result. On the extended reals the matrix product at an entry
  is the plain sum over the 64 contraction positions, so an entry `(e, f)` of the result depends on row `e` of the
  features, column `f` of the matrix and the scalar of edge `e` alone: the blocks are restrictions of ONE function of the
  three arrays, `Spec.edgeMsg`, and since every row lies in exactly one block the result array ends holding that
  function. Stated for any contents `V` the region may be entered at.
-/
import proofs.«174294_j9268539425563_2_alg».proof.Proof.Gen.KernelIdeal.Frame
import proofs.«174294_j9268539425563_2_alg».proof.Proof.Spec
import proofs.«174294_j9268539425563_2_alg».proof.Proof.LibColumnBroadcast
import proofs.«174294_j9268539425563_2_alg».proof.Proof.LibPlainDot
import Idealize.ShloMosaic.Lib.Pipeline.Value
import Idealize.ShloMosaic.Lib.ValueIdx

set_option maxRecDepth 16384

noncomputable section

namespace Cert.KernelIdeal.EdgeMessage

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The edge features as the region finds them, as a table of extended reals. -/
abbrev featAt (c : Dev nD) : Spec.Tab 1000000 64 := V c main_arg0
/-- The 64 x 64 matrix the region multiplies by, as it finds it. -/
abbrev matAt (c : Dev nD) : Spec.Tab 64 64 := V c main_v8
/-- The column of edge scalars as the region finds it. -/
abbrev scaleAt (c : Dev nD) : Spec.Tab 1000000 1 := V c main_v7

/-- The body's loads and its store start at the block's first entry. -/
theorem offsets_zero : (![0, 0] : Fin 2 → Nat) = fun _ => 0 := funext fun a => by fin_cases a <;> rfl

/-- What the body stores, at an entry: the row of the loaded block times the column of the matrix, times the row's scalar. -/
theorem payload_entry (x0 : FVec Ideal S10000x64 .f32) (x1 : FVec Ideal S64x64 .f32) (x2 : FVec Ideal S10000x1 .f32)
    (p : Fin 10000) (q : Fin 64) :
    k0_pay1 (F := Ideal) x0 x1 x2 (ix2 p q)
      = (∑ k : Fin 64, x0 (ix2 p k) * x1 (ix2 k q)) * x2 (ix2 p (0 : Fin 1)) := by
  unfold k0_pay1
  show mulf (F := Ideal) (φ := .f32)
      (matmul dot_S10000x64_S64x64_S10000x64_1_0_0_1_n_n none x0 (shapeCast S64x64 x1 shapeCasts_S64x64_S64x64)
        (constant S10000x64 .f32 0x00000000#32))
      (broadcastTo S10000x64 (shapeCast S10000x1 x2 shapeCasts_S10000x1_S10000x1) broadcasts_S10000x1_S10000x64) (ix2 p q) = _
  rw [mulf_apply, shapeCast_self, shapeCast_self, ColumnBroadcast.apply]
  exact congrArg (· * x2 (ix2 p (0 : Fin 1))) (PlainDot.matmul_zero_apply 10000 64 64 none x0 x1 (ix2 p q))

/-- Rows move with the point, the matrix stays: at point `t` the features, the scalars and the result are at block row
    `t`, the matrix at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `edgeMsg` of the three arrays as the region finds them. -/
theorem flushed_eq (c : Dev nD) (t : Fin cfg0.N) :
    (dat0 V c).flushed 3 t
      = ((cfg0.win 3).blk t).view.read (Elt Ideal) (Spec.edgeMsg (featAt V c) (matAt V c) (scaleAt V c)) := by
  show (cfg0.win 3).cut (grid0.coords t) ((dat0 V c).after 3 t) = _
  rw [after0_3]
  unfold out0_3
  rw [View.canon_unit_zero offsets_zero]
  simp only [View.ld_unit_zero (S := S10000x64) offsets_zero, View.ld_unit_zero (S := S64x64) offsets_zero,
    View.ld_unit_zero (S := S10000x1) offsets_zero]
  obtain ⟨e0, e1, e2, e3, e4, e5, e6, e7⟩ := index_facts t
  funext j
  obtain ⟨p, q, rfl⟩ : ∃ (p : Fin 10000) (q : Fin 64), j = ix2 p q := ⟨j 0, j 1, eq_ix2 j⟩
  refine (payload_entry _ _ _ p q).trans ?_
  show (∑ k : Fin 64, featAt V c (((cfg0.win 0).blk t).view.emb (ix2 p k)) * matAt V c (((cfg0.win 1).blk t).view.emb (ix2 k q)))
        * scaleAt V c (((cfg0.win 2).blk t).view.emb (ix2 p (0 : Fin 1)))
      = (∑ k : Fin 64, featAt V c (ix2 ((((cfg0.win 3).blk t).view.emb (ix2 p q)) 0) k)
            * matAt V c (ix2 k ((((cfg0.win 3).blk t).view.emb (ix2 p q)) 1)))
        * scaleAt V c (ix2 ((((cfg0.win 3).blk t).view.emb (ix2 p q)) 0) (0 : Fin 1))
  have h0 : ∀ k : Fin 64, ((cfg0.win 0).blk t).view.emb (ix2 p k)
      = ix2 ((((cfg0.win 3).blk t).view.emb (ix2 p q)) 0) k := fun k => by
    funext a; apply Fin.ext
    match a with
    | ⟨0, _⟩ => show win0_0.index t (0 : Fin 2) * 10000 + 1 * p.val = win0_3.index t (0 : Fin 2) * 10000 + 1 * p.val; omega
    | ⟨1, _⟩ => show win0_0.index t (1 : Fin 2) * 64 + 1 * k.val = k.val; omega
  have h1 : ∀ k : Fin 64, ((cfg0.win 1).blk t).view.emb (ix2 k q)
      = ix2 k ((((cfg0.win 3).blk t).view.emb (ix2 p q)) 1) := fun k => by
    funext a; apply Fin.ext
    match a with
    | ⟨0, _⟩ => show win0_1.index t (0 : Fin 2) * 64 + 1 * k.val = k.val; omega
    | ⟨1, _⟩ => show win0_1.index t (1 : Fin 2) * 64 + 1 * q.val = win0_3.index t (1 : Fin 2) * 64 + 1 * q.val; omega
  have h2 : ((cfg0.win 2).blk t).view.emb (ix2 p (0 : Fin 1))
      = ix2 ((((cfg0.win 3).blk t).view.emb (ix2 p q)) 0) (0 : Fin 1) := by
    funext a; apply Fin.ext
    match a with
    | ⟨0, _⟩ => show win0_2.index t (0 : Fin 2) * 10000 + 1 * p.val = win0_3.index t (0 : Fin 2) * 10000 + 1 * p.val; omega
    | ⟨1, _⟩ => show win0_2.index t (1 : Fin 2) * 1 + 1 * 0 = 0; omega
  rw [h2]
  exact congrArg (· * scaleAt V c (ix2 ((((cfg0.win 3).blk t).view.emb (ix2 p q)) 0) (0 : Fin 1)))
    (Finset.sum_congr rfl fun k _ => by rw [h0 k, h1 k]; rfl)

/-- An index of the result is in point `t`'s block iff each coordinate is in the block's range on its axis. -/
theorem mem_block (t : Fin cfg0.N) (i : S1000000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v9).slice (win0_3.rect t)).set ↔ _
  rw [View.set_slice_whole, Rect.mem_set_unit]
  exact Iff.rfl

/-- Every row lies in a block: row `e` in block `e / 10000`. -/
theorem covered (i : S1000000x64.Idx) :
    ∃ t : Fin cfg0.N, (cfg0.win 3).flush t = true ∧ i ∈ ((cfg0.win 3).blk t).view.set := by
  have hi0 : (i 0).val < 1000000 := (i 0).isLt
  have hi1 : (i 1).val < 64 := (i 1).isLt
  have hN : grid0.N = 100 := N_0
  have hlt : (i 0).val / 10000 < grid0.N := by rw [hN]; omega
  obtain ⟨-, -, -, -, -, -, e6, e7⟩ := index_facts ⟨(i 0).val / 10000, hlt⟩
  have e6' : win0_3.index ⟨(i 0).val / 10000, hlt⟩ (0 : Fin 2) = (i 0).val / 10000 := e6
  refine ⟨⟨(i 0).val / 10000, hlt⟩, flush0_3 _, ?_⟩
  rw [mem_block]
  intro a
  match a with
  | ⟨0, _⟩ =>
    show win0_3.index ⟨(i 0).val / 10000, hlt⟩ (0 : Fin 2) * 10000 ≤ (i 0).val
      ∧ (i 0).val < win0_3.index ⟨(i 0).val / 10000, hlt⟩ (0 : Fin 2) * 10000 + 10000
    rw [e6']; omega
  | ⟨1, _⟩ =>
    show win0_3.index ⟨(i 0).val / 10000, hlt⟩ (1 : Fin 2) * 64 ≤ (i 1).val
      ∧ (i 1).val < win0_3.index ⟨(i 0).val / 10000, hlt⟩ (1 : Fin 2) * 64 + 64
    rw [e7]; omega

/-- The result array after the region: `edgeMsg` of the features, the matrix and the scalars as the region finds them. -/
theorem final (c : Dev nD) :
    (dat0 V c).arrAt 3 cfg0.N = Spec.edgeMsg (featAt V c) (matAt V c) (scaleAt V c) :=
  (dat0 V c).arrAt_eq_of_cover 3 _ (fun t _ => flushed_eq V c t) (covered)

end Cert.KernelIdeal.EdgeMessage

end
-- ==== Proof.NodeScale.lean ====
/-
  The second kernel's array, whole: each node's aggregated row times the node's scalar.

  The kernel walks the 100000 rows in 10 blocks of 10000. At block `t` it loads rows `10000 t ..` of the aggregated
  table and of the column of node scalars, multiplies each row by its scalar, and writes the block back to the same rows of
  the result. An entry `(n, f)` of the result therefore depends on row `n` alone, the blocks are restrictions of ONE
  function of the two arrays, `Spec.rowScale`, and since every row lies in exactly one block the result array ends
  holding that function. Stated for any contents `V` the region may be entered at.
-/
import proofs.«174294_j9268539425563_2_alg».proof.Proof.Gen.KernelIdeal.Frame
import proofs.«174294_j9268539425563_2_alg».proof.Proof.Spec
import proofs.«174294_j9268539425563_2_alg».proof.Proof.LibColumnBroadcast
import Idealize.ShloMosaic.Lib.Pipeline.Value
import Idealize.ShloMosaic.Lib.ValueIdx

set_option maxRecDepth 16384

noncomputable section

namespace Cert.KernelIdeal.NodeScale

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The aggregated table as the region finds it, as a table of extended reals. -/
abbrev aggAt (c : Dev nD) : Spec.Tab 100000 64 := V c main_v12
/-- The column of node scalars as the region finds it. -/
abbrev ciAt (c : Dev nD) : Spec.Tab 100000 1 := V c main_arg1

/-- The body's loads and its store start at the block's first entry. -/
theorem offsets_zero : (![0, 0] : Fin 2 → Nat) = fun _ => 0 := funext fun a => by fin_cases a <;> rfl

/-- What the body stores, at an entry: the loaded row entry times the row's scalar. -/
theorem payload_entry (x0 : FVec Ideal S10000x64 .f32) (x1 : FVec Ideal S10000x1 .f32) (p : Fin 10000) (q : Fin 64) :
    k1_pay1 (F := Ideal) x0 x1 (ix2 p q) = x0 (ix2 p q) * x1 (ix2 p (0 : Fin 1)) := by
  unfold k1_pay1
  show mulf (F := Ideal) (φ := .f32) (shapeCast S10000x64 x0 shapeCasts_S10000x64_S10000x64)
      (broadcastTo S10000x64 x1 broadcasts_S10000x1_S10000x64) (ix2 p q) = _
  rw [mulf_apply, shapeCast_self, ColumnBroadcast.apply]

/-- The three windows move together: at point `t` each is at block row `t`, block column 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `rowScale` of the two arrays as the region finds them. -/
theorem flushed_eq (c : Dev nD) (t : Fin cfg1.N) :
    (dat1 V c).flushed 2 t
      = ((cfg1.win 2).blk t).view.read (Elt Ideal) (Spec.rowScale (aggAt V c) (ciAt V c)) := by
  show (cfg1.win 2).cut (grid1.coords t) ((dat1 V c).after 2 t) = _
  rw [after1_2]
  unfold out1_2
  rw [View.canon_unit_zero offsets_zero]
  simp only [View.ld_unit_zero (S := S10000x64) offsets_zero, View.ld_unit_zero (S := S10000x1) offsets_zero]
  obtain ⟨e0, e1, e2, e3, e4, e5⟩ := index_facts t
  funext j
  obtain ⟨p, q, rfl⟩ : ∃ (p : Fin 10000) (q : Fin 64), j = ix2 p q := ⟨j 0, j 1, eq_ix2 j⟩
  refine (payload_entry _ _ p q).trans ?_
  show aggAt V c (((cfg1.win 0).blk t).view.emb (ix2 p q)) * ciAt V c (((cfg1.win 1).blk t).view.emb (ix2 p (0 : Fin 1)))
      = aggAt V c (((cfg1.win 2).blk t).view.emb (ix2 p q))
        * ciAt V c (ix2 ((((cfg1.win 2).blk t).view.emb (ix2 p q)) 0) (0 : Fin 1))
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix2 p (0 : Fin 1))
      = ix2 ((((cfg1.win 2).blk t).view.emb (ix2 p q)) 0) (0 : Fin 1) := by
    funext a; apply Fin.ext
    match a with
    | ⟨0, _⟩ => show win1_1.index t (0 : Fin 2) * 10000 + 1 * p.val = win1_2.index t (0 : Fin 2) * 10000 + 1 * p.val; omega
    | ⟨1, _⟩ => show win1_1.index t (1 : Fin 2) * 1 + 1 * 0 = 0; omega
  rw [h0, h1]
  rfl

/-- An index of the result is in point `t`'s block iff each coordinate is in the block's range on its axis. -/
theorem mem_block (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v13).slice (win1_2.rect t)).set ↔ _
  rw [View.set_slice_whole, Rect.mem_set_unit]
  exact Iff.rfl

/-- Every row lies in a block: row `n` in block `n / 10000`. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  have hlt : (i 0).val / 10000 < grid1.N := by rw [hN]; omega
  obtain ⟨-, -, -, -, e4, e5⟩ := index_facts ⟨(i 0).val / 10000, hlt⟩
  have e4' : win1_2.index ⟨(i 0).val / 10000, hlt⟩ (0 : Fin 2) = (i 0).val / 10000 := e4
  refine ⟨⟨(i 0).val / 10000, hlt⟩, flush1_2 _, ?_⟩
  rw [mem_block]
  intro a
  match a with
  | ⟨0, _⟩ =>
    show win1_2.index ⟨(i 0).val / 10000, hlt⟩ (0 : Fin 2) * 10000 ≤ (i 0).val
      ∧ (i 0).val < win1_2.index ⟨(i 0).val / 10000, hlt⟩ (0 : Fin 2) * 10000 + 10000
    rw [e4']; omega
  | ⟨1, _⟩ =>
    show win1_2.index ⟨(i 0).val / 10000, hlt⟩ (1 : Fin 2) * 64 ≤ (i 1).val
      ∧ (i 1).val < win1_2.index ⟨(i 0).val / 10000, hlt⟩ (1 : Fin 2) * 64 + 64
    rw [e5]; omega

/-- The result array after the region: `rowScale` of the aggregated table and the node scalars as the region finds them. -/
theorem final (c : Dev nD) :
    (dat1 V c).arrAt 2 cfg1.N = Spec.rowScale (aggAt V c) (ciAt V c) :=
  (dat1 V c).arrAt_eq_of_cover 2 _ (fun t _ => flushed_eq V c t) (covered)

end Cert.KernelIdeal.NodeScale

end
-- ==== Proof.Stretches.lean ====
/-
  The kernel program's result as ONE function of its six arguments.

  Between and around the two kernels the program applies host operations; three short chains of them are named here,
  each as one function, and never opened:
    * `edgeScale ci mask src`  — per edge, the scalar of the edge's source node (a gather of `ci` at `src`, a negative
      index first wrapped by adding the node count) times the edge's mask entry;
    * `weightsT W`             — the 64 x 64 matrix transposed;
    * `aggregate dst u`        — the rows of `u` summed into a zero table at the rows `dst` names (a scatter-add).
  Reading the contents fold `W4` of the program's four stretches back to the launch memory: the first kernel is entered
  with the features as launched, the matrix at `weightsT W` and the scalars at `edgeScale ci mask src`, and leaves
  `edgeMsg` of them; the second is entered with the aggregate of that and with `ci` as launched, and leaves `rowScale` of
  them. So the result buffer ends at

      rowScale (aggregate dst (edgeMsg feat (weightsT W) (edgeScale ci mask src))) ci.
-/
import proofs.«174294_j9268539425563_2_alg».proof.Proof.Gen.KernelIdeal.Frame
import proofs.«174294_j9268539425563_2_alg».proof.Proof.Spec
import proofs.«174294_j9268539425563_2_alg».proof.Proof.EdgeMessage
import proofs.«174294_j9268539425563_2_alg».proof.Proof.NodeScale
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat Cfg Window)

/-- Per edge: the source node's scalar (gathered, a negative index wrapped first) times the edge's mask entry. -/
def edgeScale (x1 : FVec Ideal S100000x1 .f32) (x3 : FVec Ideal S1000000x1 .f32) (x4 : IVec S1000000 32) :
    FVec Ideal S1000000x1 .f32 :=
  mulf (Host.gather gather_S100000x1_S1000000x1_S1000000x1_1_0_n_n_0_1_11 x1
    (broadcastInDim S1000000x1 ![0] bcast_S1000000_S1000000x1_0
      (select (cmpi .slt x4 (broadcastInDim S1000000 ![] bcast_S_S1000000 (constantI S_ 32 0#32)))
        (addi x4 (broadcastInDim S1000000 ![] bcast_S_S1000000 (constantI S_ 32 100000#32))) x4))) x3

/-- The 64 x 64 matrix transposed. -/
def weightsT (x2 : FVec Ideal S64x64 .f32) : FVec Ideal S64x64 .f32 :=
  transpose S64x64 [1, 0] x2 transposes_S64x64_S64x64_1_0

/-- The rows of `u` summed into a zero table at the rows `x5` names. -/
def aggregate (x5 : IVec S1000000 32) (u : FVec Ideal S1000000x64 .f32) : FVec Ideal S100000x64 .f32 :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 x5) u

variable (m : (ℓ : Loc nD τ sig) → Buf (Elt Ideal) ℓ) (ρ : Dev nD → PrngReg)

/-! ## The first kernel's entry contents -/

theorem entry_feat (c : Dev nD) : V1 m ρ c main_arg0 = m ((c : Thread nD τ).loc main_arg0) := by
  show StableHlo.after hostOps0 (W0 m ρ c) (Proc.devRef .tc main_arg0) = _
  after_results

theorem entry_mat (c : Dev nD) : V1 m ρ c main_v8 = weightsT (m ((c : Thread nD τ).loc main_arg2)) := by
  show StableHlo.after hostOps0 (W0 m ρ c) (Proc.devRef .tc main_v8) = _
  after_results
  rfl

theorem entry_scale (c : Dev nD) :
    V1 m ρ c main_v7 = edgeScale (m ((c : Thread nD τ).loc main_arg1)) (m ((c : Thread nD τ).loc main_arg3))
      (m ((c : Thread nD τ).loc main_arg4)) := by
  show StableHlo.after hostOps0 (W0 m ρ c) (Proc.devRef .tc main_v7) = _
  after_results
  rfl

/-- The destination indices reach the second stretch as launched. -/
theorem kept_dst (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results

/-! ## The first kernel's array at its exit -/

theorem messages (c : Dev nD) :
    (W2 m ρ c (Proc.devRef .tc main_v9) : Spec.Tab 1000000 64)
      = Spec.edgeMsg (m ((c : Thread nD τ).loc main_arg0)) (weightsT (m ((c : Thread nD τ).loc main_arg2)))
          (edgeScale (m ((c : Thread nD τ).loc main_arg1)) (m ((c : Thread nD τ).loc main_arg3)) (m ((c : Thread nD τ).loc main_arg4))) := by
  refine ((W2_arr m ρ c 3).trans (EdgeMessage.final (V1 m ρ) c)).trans ?_
  show Spec.edgeMsg (V1 m ρ c main_arg0 : Spec.Tab 1000000 64) (V1 m ρ c main_v8 : Spec.Tab 64 64) (V1 m ρ c main_v7 : Spec.Tab 1000000 1) = _
  rw [entry_feat, entry_mat, entry_scale]

/-! ## The second kernel's entry contents -/

theorem entry_agg (c : Dev nD) :
    V3 m ρ c main_v12 = aggregate (m ((c : Thread nD τ).loc main_arg5)) (W2 m ρ c (Proc.devRef .tc main_v9)) := by
  show StableHlo.after hostOps1 (W2 m ρ c) (Proc.devRef .tc main_v12) = _
  after_results
  rw [kept_dst]
  rfl

theorem entry_ci (c : Dev nD) : V3 m ρ c main_arg1 = m ((c : Thread nD τ).loc main_arg1) :=
  ((W4_arr m ρ c 1).trans (((dat1 (V3 m ρ) c).arrAt_in 1 rfl _).trans (A_eq1 (V3 m ρ) c 1))).symm.trans (W4_main_arg1 m ρ c)

/-! ## The result -/

/-- The layer as one function of the six arguments. -/
def layer (x0 : FVec Ideal S1000000x64 .f32) (x1 : FVec Ideal S100000x1 .f32) (x2 : FVec Ideal S64x64 .f32)
    (x3 : FVec Ideal S1000000x1 .f32) (x4 x5 : IVec S1000000 32) : FVec Ideal S100000x64 .f32 :=
  Spec.rowScale (N := 100000) (aggregate x5 (Spec.edgeMsg (E := 1000000) x0 (weightsT x2) (edgeScale x1 x3 x4))) x1

theorem result (c : Dev nD) :
    W4 m ρ c (Proc.devRef .tc main_v13)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine ((W4_arr m ρ c 2).trans (NodeScale.final (V3 m ρ) c)).trans ?_
  show Spec.rowScale (V3 m ρ c main_v12 : Spec.Tab 100000 64) (V3 m ρ c main_arg1 : Spec.Tab 100000 1) = _
  rw [entry_agg, entry_ci, messages]
  rfl

end Cert.KernelIdeal.Stretches

end
-- ==== Proof.Transposed.lean ====
/-
  A square matrix read with its two coordinates exchanged.

  `flip w (k, f) = w (f, k)`. The host's transpose of a 64 x 64 matrix is this function; it is the form in which the
  weights enter `Spec.edgeMsg` on both sides: the kernel program transposes the weights on the host and contracts the
  transposed matrix's first axis, the reference contracts the weights' second axis directly.
-/
import proofs.«174294_j9268539425563_2_alg».proof.Proof.Spec
import Idealize.ShloMosaic.Lib.ValueLayout

noncomputable section

namespace Cert.Spec

open Idealize.ShloMosaic Idealize.ShloMosaic.ValueIdx

/-- The matrix with its coordinates exchanged. -/
def flip (w : Tab 64 64) : Tab 64 64 := fun j => w (ix2 (j 1) (j 0))

/-- The host's transpose of a 64 x 64 matrix exchanges the coordinates. -/
theorem transpose_eq_flip (w : Tab 64 64) (h : (⟨2, ![64, 64]⟩ : Shape).Transposes [1, 0] ⟨2, ![64, 64]⟩) :
    transpose ⟨2, ![64, 64]⟩ [1, 0] w h = flip w := by
  funext j
  obtain ⟨a, b, rfl⟩ : ∃ (a b : Fin 64), j = ix2 a b := ⟨j 0, j 1, eq_ix2 j⟩
  exact transpose_ix2_apply w h a b

end Cert.Spec

end
-- ==== Proof.RefValue.lean ====
/-
  The reference's result as the same two formulas.

  The reference computes, per edge, the features times the weights contracted on the weights' SECOND axis — at an entry
  `(e, f)` the sum over `k` of `feat (e, k) * W (f, k)`, which is `edgeMsg` at the weights read flipped — times the
  edge's scalar broadcast along the row; sums the messages into a zero table at the destination rows; and multiplies each
  row of the sum by its node's scalar broadcast along the row, which is `rowScale`. The scalar chain and the sum are kept as
  the functions the run states and are not opened.
-/
import proofs.«174294_j9268539425563_2_alg».proof.Defs
import proofs.«174294_j9268539425563_2_alg».proof.Proof.Gen.ReferenceIdeal.Run
import proofs.«174294_j9268539425563_2_alg».proof.Proof.Gen.ReferenceIdeal.Read
import proofs.«174294_j9268539425563_2_alg».proof.Proof.Spec
import proofs.«174294_j9268539425563_2_alg».proof.Proof.Transposed

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The rows of `u` summed into a zero table at the rows `x5` names: the reference's scatter-add, unopened. -/
def aggregate (x5 : IVec S1000000 32) (u : FVec Ideal S1000000x64 .f32) : FVec Ideal S100000x64 .f32 :=
  Host.scatterAdd scatter_S100000x64_S1000000x1_S1000000x64_1_0_0_1 (val_main_v11 (F := Ideal)) (val_main_v12 (F := Ideal) x5) u

/-- The reference's messages: `edgeMsg` of the features, the weights read flipped, and the edge scalars. -/
theorem messages (x0 : FVec Ideal S1000000x64 .f32) (x1 : FVec Ideal S100000x1 .f32) (x2 : FVec Ideal S64x64 .f32)
    (x3 : FVec Ideal S1000000x1 .f32) (x4 : IVec S1000000 32) :
    val_main_v10 (F := Ideal) x0 x1 x2 x3 x4
      = Spec.edgeMsg (E := 1000000) x0 (Spec.flip x2) (val_main_v8 (F := Ideal) x1 x3 x4) := by
  funext i
  rw [val_main_v10_apply, val_main_v0_apply, val_main_v9_apply]
  have hl : ∀ k : Fin 64, lidx_main_v0 i k = ix2 (i 0) k := fun k => funext fun a => Fin.ext (by
    match a with
    | ⟨0, _⟩ => rfl
    | ⟨1, _⟩ => rfl)
  have hr : ∀ k : Fin 64, ridx_main_v0 i k = ix2 (i 1) k := fun k => funext fun a => Fin.ext (by
    match a with
    | ⟨0, _⟩ => rfl
    | ⟨1, _⟩ => rfl)
  have h9 : idx_main_v9 i = ix2 (i 0) (0 : Fin 1) := funext fun a => Fin.ext (by
    match a with
    | ⟨0, _⟩ => rfl
    | ⟨1, _⟩ => rfl)
  rw [h9]
  show (∑ k : Fin 64, x0 (lidx_main_v0 i k) * x2 (ridx_main_v0 i k)) * val_main_v8 (F := Ideal) x1 x3 x4 (ix2 (i 0) (0 : Fin 1))
      = (∑ k : Fin 64, x0 (ix2 (i 0) k) * x2 (ix2 (i 1) k)) * val_main_v8 (F := Ideal) x1 x3 x4 (ix2 (i 0) (0 : Fin 1))
  exact congrArg (· * val_main_v8 (F := Ideal) x1 x3 x4 (ix2 (i 0) (0 : Fin 1)))
    (Finset.sum_congr rfl fun k _ => by rw [hl k, hr k]; rfl)

/-- The reference's result: each node's aggregated messages times the node's scalar. -/
theorem result_eq (x0 : FVec Ideal S1000000x64 .f32) (x1 : FVec Ideal S100000x1 .f32) (x2 : FVec Ideal S64x64 .f32)
    (x3 : FVec Ideal S1000000x1 .f32) (x4 x5 : IVec S1000000 32) :
    val_main_v15 (F := Ideal) x0 x1 x2 x3 x4 x5
      = Spec.rowScale (N := 100000)
          (aggregate x5 (Spec.edgeMsg (E := 1000000) x0 (Spec.flip x2) (val_main_v8 (F := Ideal) x1 x3 x4))) x1 := by
  funext i
  rw [val_main_v15_apply, val_main_v14_apply]
  have h14 : idx_main_v14 i = ix2 (i 0) (0 : Fin 1) := funext fun a => Fin.ext (by
    match a with
    | ⟨0, _⟩ => rfl
    | ⟨1, _⟩ => rfl)
  rw [h14, ← messages]
  rfl

end Cert.ReferenceIdeal.RefValue

end
-- ==== Proof.Bridge.lean ====
/-
  The two programs compute one function.

  The kernel program's result is `rowScale (aggregate dst (edgeMsg feat (weightsT W) (edgeScale ci mask src))) ci`,
  the reference's the same formula with the weights read flipped. The host's transpose IS the flipped read, and the
  scalar chain and the scatter-add are the same host operations with the same dimension numbers on both sides, so the two
  terms are equal as they stand: no law of arithmetic is used, and nothing needs to be finite.
-/
import proofs.«174294_j9268539425563_2_alg».proof.Proof.Stretches
import proofs.«174294_j9268539425563_2_alg».proof.Proof.RefValue
import proofs.«174294_j9268539425563_2_alg».proof.Proof.Transposed

set_option maxRecDepth 16384

noncomputable section

namespace Cert.Bridge

open Idealize.ShloMosaic Idealize.ShloMosaic.ValueIdx

/-- The kernel program's layer is the reference's final stage, as functions of the six arguments. -/
theorem layer_eq (x0 : FVec Ideal Cert.KernelIdeal.S1000000x64 .f32) (x1 : FVec Ideal Cert.KernelIdeal.S100000x1 .f32)
    (x2 : FVec Ideal Cert.KernelIdeal.S64x64 .f32) (x3 : FVec Ideal Cert.KernelIdeal.S1000000x1 .f32)
    (x4 x5 : IVec Cert.KernelIdeal.S1000000 32) :
    Cert.KernelIdeal.Stretches.layer x0 x1 x2 x3 x4 x5
      = Cert.ReferenceIdeal.Read.val_main_v15 (F := Ideal) x0 x1 x2 x3 x4 x5 := by
  rw [Cert.ReferenceIdeal.RefValue.result_eq]
  unfold Cert.KernelIdeal.Stretches.layer
  have hT : Cert.KernelIdeal.Stretches.weightsT x2 = Cert.Spec.flip x2 := Cert.Spec.transpose_eq_flip x2 _
  have hS : Cert.KernelIdeal.Stretches.edgeScale x1 x3 x4 = Cert.ReferenceIdeal.Read.val_main_v8 (F := Ideal) x1 x3 x4 := rfl
  have hA : ∀ u, Cert.KernelIdeal.Stretches.aggregate x5 u = Cert.ReferenceIdeal.RefValue.aggregate x5 u := fun _ => rfl
  rw [hT, hS, hA]

end Cert.Bridge

end
-- ==== Proof.lean ====
/-
  One message-passing layer over a graph of 1000000 edges and 100000 nodes with 64 features: per edge, the edge's feature
  row times the transposed 64 x 64 weights, scaled by the source node's scalar times a dropout mask entry; the messages
  summed at their destination nodes; each node's sum scaled by the node's own scalar.

  The kernel program computes the per-edge product-and-scale in a first kernel over 100 blocks of 10000 edges, sums on the
  host, and scales the rows in a second kernel over 10 blocks of 10000 nodes; the reference does all of it on the host. On the
  extended reals every step is exact, a block of rows of either kernel is the restriction of one row-wise formula
  (Proof/EdgeMessage.lean, Proof/NodeScale.lean over Proof/Spec.lean), the program's run names its result buffer
  (Proof/WholeRun.lean) and reads it back to the arguments (Proof/Stretches.lean), the reference's run is the same two
  formulas (Proof/RefValue.lean), and the two terms coincide (Proof/Bridge.lean): the weights' transpose on one side is the
  contraction of their second axis on the other, and the gather, the mask product and the scatter-add are the same host
  operations on both sides and are never opened. Nothing needs the inputs finite.
-/
import proofs.«174294_j9268539425563_2_alg».proof.Defs
import proofs.«174294_j9268539425563_2_alg».proof.Proof.Gen.Kernel
import proofs.«174294_j9268539425563_2_alg».proof.Proof.Gen.Kernel.Frame
import proofs.«174294_j9268539425563_2_alg».proof.Proof.Gen.KernelIdeal
import proofs.«174294_j9268539425563_2_alg».proof.Proof.Gen.KernelIdeal.Frame
import proofs.«174294_j9268539425563_2_alg».proof.Proof.Gen.ReferenceIdeal
import proofs.«174294_j9268539425563_2_alg».proof.Proof.Gen.ReferenceIdeal.Run
import proofs.«174294_j9268539425563_2_alg».proof.Proof.Gen.ReferenceIdeal.Read
import proofs.«174294_j9268539425563_2_alg».proof.Proof.Gen.Pre_finite_inputs
import proofs.«174294_j9268539425563_2_alg».proof.Proof.WholeRun
import proofs.«174294_j9268539425563_2_alg».proof.Proof.Stretches
import proofs.«174294_j9268539425563_2_alg».proof.Proof.RefValue
import proofs.«174294_j9268539425563_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with the layer of those arguments in their result. -/
theorem algebraic : Cert.algebraic_KernelIdeal_ReferenceIdeal := by
  intro m ρ m' ρ' _ hagree
  refine ⟨fun c => Cert.KernelIdeal.Stretches.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Stretches.result m ρ c), (h c).2⟩)
      (Cert.KernelIdeal.WholeRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, (hagree c).1, (hagree c).2.1, (hagree c).2.2.1, (hagree c).2.2.2.1,
      (hagree c).2.2.2.2.1, (hagree c).2.2.2.2.2]
    exact (Cert.Bridge.layer_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
